-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x1024 .f32) (main_arg1 : FVec F S1024x1024 .f32) (main_arg2 : FVec F S1x1024 .f32) (main_arg3 : FVec F S1x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S0 : Shape := ⟨1, ![0]⟩
abbrev S_ : Shape := ⟨0, ![]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S0, .i32⟩
  | .hbm, ⟨6, _⟩ => ⟨S0, .i32⟩
  | .hbm, ⟨7, _⟩ => ⟨S0, .i32⟩
  | .hbm, ⟨8, _⟩ => ⟨S0, .i32⟩
  | .hbm, ⟨9, _⟩ => ⟨S0, .i32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_4 : Ref sig .tc := ⟨.hbm, 13, rfl⟩
abbrev main_v2 : Ref sig .tc := ⟨.hbm, 14, rfl⟩
abbrev main_v3 : Ref sig .tc := ⟨.hbm, 15, rfl⟩
abbrev main_cst_5 : Ref sig .tc := ⟨.hbm, 16, rfl⟩
abbrev main_v4 : Ref sig .tc := ⟨.hbm, 17, rfl⟩
abbrev main_v5 : Ref sig .tc := ⟨.hbm, 18, rfl⟩
abbrev main_cst_6 : Ref sig .tc := ⟨.hbm, 19, rfl⟩
abbrev main_v6 : Ref sig .tc := ⟨.hbm, 20, rfl⟩
abbrev main_v7 : Ref sig .tc := ⟨.hbm, 21, rfl⟩
abbrev main_cst_7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  hz_S0 : S0.numel = 0
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x1024_S512 : S512x1024.Reduces [1] S512
  shapeCasts_S512_S512x1 : S512.ShapeCasts S512x1
  broadcasts_S512x1_S512x1024 : S512x1.Broadcasts S512x1024
  scatter_S8192x1024_S0_S8192x1024_01_n_n_0_wf : ScatterDims.WF S8192x1024 S0 S8192x1024 [0, 1] [] [] 0
  scatter_S1024x1024_S0_S1024x1024_01_n_n_0_wf : ScatterDims.WF S1024x1024 S0 S1024x1024 [0, 1] [] [] 0
  scatter_S1x1024_S0_S1x1024_01_n_n_0_wf : ScatterDims.WF S1x1024 S0 S1x1024 [0, 1] [] [] 0
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x1024.size a
  hwx0_0 : ∀ i : grid0.Coords, EltTy.bits .f32 = 32 ∨ (Rect.block (s := S8192x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .f32 = 32 ∨ (Rect.block (s := S1024x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def scatter_S8192x1024_S0_S8192x1024_01_n_n_0 : ScatterDims S8192x1024 S0 S8192x1024 where
  updateWindowDims := [0, 1]
  insertedWindowDims := []
  scatterDimsToOperandDims := []
  indexVectorDim := 0
  wf := scatter_S8192x1024_S0_S8192x1024_01_n_n_0_wf
def scatter_S1024x1024_S0_S1024x1024_01_n_n_0 : ScatterDims S1024x1024 S0 S1024x1024 where
  updateWindowDims := [0, 1]
  insertedWindowDims := []
  scatterDimsToOperandDims := []
  indexVectorDim := 0
  wf := scatter_S1024x1024_S0_S1024x1024_01_n_n_0_wf
def scatter_S1x1024_S0_S1x1024_01_n_n_0 : ScatterDims S1x1024 S0 S1x1024 where
  updateWindowDims := [0, 1]
  insertedWindowDims := []
  scatterDimsToOperandDims := []
  indexVectorDim := 0
  wf := scatter_S1x1024_S0_S1x1024_01_n_n_0_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.Spec.lean ====
/-
  The mathematics both programs compute, on the extended reals.
  For a row of pre-activations `y` (1024 lanes), scale `g` and shift `bt`:
    mean = (Σ y)·c,  var = max((Σ y²)·c − mean², 0),  out_q = max(((y_q − mean)·rsqrt(var + ε))·g_q + bt_q, 0),
  with c the binary value of 2⁻¹⁰ and ε the binary value nearest 1e-5, kept as their bit patterns (both sides carry the
  same words, so they are never evaluated). The pre-activation of row `r`, lane `j` is (Σ_k x[r,k]·w[k,j]) + b[j].
  One program adds the bias last to the whole sum over k; the other starts from the bias and adds the two halves of
  the sum one after the other. Addition of extended reals is commutative and associative, so the two agree with no
  finiteness assumption (`preact_split`).
-/
import Idealize.ShloMosaic.PureOps.Ideal
import Idealize.ShloMosaic.Lib.ValueIdx

noncomputable section

namespace Cert.LinearNorm

open Idealize.ShloMosaic Idealize.ShloMosaic.ValueIdx

/-- 2⁻¹⁰ as the f32 word both programs multiply the row sums by. -/
abbrev invD : EReal := Ideal.ofBits .f32 0x3A800000#32
/-- The variance offset, as the f32 word both programs add. -/
abbrev eps : EReal := Ideal.ofBits .f32 0x3727C5AC#32
/-- The f32 zero word the clamps compare with. -/
abbrev zeroW : EReal := Ideal.ofBits .f32 0x00000000#32

/-- A normalized row: lane `q` of layer-norm, scale, shift and clamp of the row `y`. -/
def rowOut (y g bt : Fin 1024 → EReal) (q : Fin 1024) : EReal :=
  max ((y q - (∑ j, y j) * invD)
        * Ideal.rsqrt (max ((∑ j, y j * y j) * invD - (∑ j, y j) * invD * ((∑ j, y j) * invD)) zeroW + eps)
        * g q + bt q) zeroW

/-- `rowOut` depends only on the row, the scale, the shift and the lane. -/
theorem rowOut_congr {y y' g g' bt bt' : Fin 1024 → EReal} {q q' : Fin 1024} (hy : y = y') (hg : g = g') (hb : bt = bt')
    (hq : q = q') : rowOut y g bt q = rowOut y' g' bt' q' := by
  subst hy hg hb hq; rfl

/-- The pre-activation at row `r`, lane `j`: the whole inner product, then the bias. -/
def preact (X : (⟨2, ![8192, 1024]⟩ : Shape).Idx → EReal) (W : (⟨2, ![1024, 1024]⟩ : Shape).Idx → EReal)
    (B : (⟨2, ![1, 1024]⟩ : Shape).Idx → EReal) (r : Fin 8192) (j : Fin 1024) : EReal :=
  (∑ k : Fin 1024, X (ix2 r k) * W (ix2 k j)) + B (ix2 (0 : Fin 1) j)

/-- The result array as one function of the five argument arrays. -/
def result (X : (⟨2, ![8192, 1024]⟩ : Shape).Idx → EReal) (W : (⟨2, ![1024, 1024]⟩ : Shape).Idx → EReal)
    (B Gm Bt : (⟨2, ![1, 1024]⟩ : Shape).Idx → EReal) : (⟨2, ![8192, 1024]⟩ : Shape).Idx → EReal :=
  fun i => rowOut (fun j => preact X W B (i 0) j) (fun j => Gm (ix2 (0 : Fin 1) j)) (fun j => Bt (ix2 (0 : Fin 1) j)) (i 1)

/-- A sum over 1024 terms plus `b` is `b` plus the first 512 terms, plus the last 512: only commutativity and
    associativity of addition are used, so it holds at the infinities too. -/
theorem sum_split (f : Fin 1024 → EReal) (b : EReal) (lo hi : Fin 512 → EReal)
    (hlo : ∀ k : Fin 512, lo k = f ⟨k.val, by have := k.isLt; omega⟩)
    (hhi : ∀ k : Fin 512, hi k = f ⟨512 + k.val, by have := k.isLt; omega⟩) :
    (∑ k, f k) + b = (b + ∑ k, lo k) + ∑ k, hi k := by
  have h := Fin.sum_univ_add (M := EReal) (a := 512) (b := 512) (f : Fin (512 + 512) → EReal)
  have e1 : ∑ k : Fin 512, f (Fin.castAdd 512 k) = ∑ k, lo k :=
    Finset.sum_congr rfl fun k _ => (hlo k).symm
  have e2 : ∑ k : Fin 512, f (Fin.natAdd 512 k) = ∑ k, hi k :=
    Finset.sum_congr rfl fun k _ => (hhi k).symm
  rw [e1, e2] at h
  calc (∑ k, f k) + b = (∑ k, lo k) + (∑ k, hi k) + b := by rw [← h]
    _ = (b + ∑ k, lo k) + ∑ k, hi k := by rw [add_right_comm, add_comm b]

end Cert.LinearNorm

end
-- ==== Proof.Epilogue.lean ====
/-
  The row-wise normalization both programs end with, read at one entry.
  For an [a, 1024] block `y` of pre-activations and [1, 1024] rows `g`, `bt`, the vector expression
    max(((y − bcast(mean))·bcast(rsqrt(max(Σy²·c − mean², 0) + ε)))·bcast(g) + bcast(bt), 0),   mean = Σy·c,
  with the sums taken along the lanes and kept as a column, is at row `p`, lane `q` the scalar function `rowOut` of
  row `p` of `y`: every step is pointwise except the lane sums (finite sums over the row), the column casts and
  the two kinds of broadcast, each of which only moves an index.
-/
import proofs.«140784_g2000102696666258_pallasbulk_1294_23_alg».proof.Proof.LibKeepdims
import proofs.«140784_g2000102696666258_pallasbulk_1294_23_alg».proof.Proof.Spec

noncomputable section

namespace Cert.LinearNorm

open Idealize.ShloMosaic Idealize.ShloMosaic.ValueIdx Cert.LibKeepdims

/-- The normalization of an [a, 1024] block at row `p`, lane `q`: `rowOut` of row `p`, with the scale and shift of lane `q`. -/
theorem epilogue_apply {a : ℕ} (hr : (⟨2, ![a, 1024]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (hb : (⟨2, ![a, 1]⟩ : Shape).Broadcasts ⟨2, ![a, 1024]⟩) (hb1 : (⟨2, ![1, 1024]⟩ : Shape).Broadcasts ⟨2, ![a, 1024]⟩)
    (y : FVec Ideal ⟨2, ![a, 1024]⟩ .f32) (g bt : FVec Ideal ⟨2, ![1, 1024]⟩ .f32) (p : Fin a) (q : Fin 1024) :
    maximumf
        (addf
          (mulf
            (mulf
              (subf y
                (broadcastTo ⟨2, ![a, 1024]⟩
                  (mulf (shapeCast ⟨2, ![a, 1]⟩ (multiReduction .add [1] ⟨1, ![a]⟩ y 0x00000000#32 hr hφ hacc) hc)
                    (broadcast ⟨2, ![a, 1]⟩ (Scalar.ofBits .f32 0x3A800000#32))) hb))
              (broadcastTo ⟨2, ![a, 1024]⟩
                (rsqrt
                  (addf
                    (maximumf
                      (subf
                        (mulf (shapeCast ⟨2, ![a, 1]⟩ (multiReduction .add [1] ⟨1, ![a]⟩ (mulf y y) 0x00000000#32 hr hφ hacc) hc)
                          (broadcast ⟨2, ![a, 1]⟩ (Scalar.ofBits .f32 0x3A800000#32)))
                        (mulf
                          (mulf (shapeCast ⟨2, ![a, 1]⟩ (multiReduction .add [1] ⟨1, ![a]⟩ y 0x00000000#32 hr hφ hacc) hc)
                            (broadcast ⟨2, ![a, 1]⟩ (Scalar.ofBits .f32 0x3A800000#32)))
                          (mulf (shapeCast ⟨2, ![a, 1]⟩ (multiReduction .add [1] ⟨1, ![a]⟩ y 0x00000000#32 hr hφ hacc) hc)
                            (broadcast ⟨2, ![a, 1]⟩ (Scalar.ofBits .f32 0x3A800000#32)))))
                      (broadcast ⟨2, ![a, 1]⟩ (Scalar.ofBits .f32 0x00000000#32)))
                    (broadcast ⟨2, ![a, 1]⟩ (Scalar.ofBits .f32 0x3727C5AC#32))))
                hb))
            (broadcastTo ⟨2, ![a, 1024]⟩ g hb1))
          (broadcastTo ⟨2, ![a, 1024]⟩ bt hb1))
        (broadcast ⟨2, ![a, 1024]⟩ (Scalar.ofBits .f32 0x00000000#32)) (ix2 p q)
      = rowOut (fun j => y (ix2 p j)) (fun j => g (ix2 (0 : Fin 1) j)) (fun j => bt (ix2 (0 : Fin 1) j)) q := by
  simp only [maximumf_apply, addf_apply, mulf_apply, subf_apply, broadcast_apply, broadcastTo_a1_ab_apply,
    broadcastTo_1b_ab_apply, rsqrt, shapeCast_a_a1_apply, laneSum_apply, Ideal.rsqrt_def, Ideal.ofBits_def, rowOut]
  rw [laneSum_apply y hr hφ hacc p, laneSum_apply (mulf y y) hr hφ hacc p]
  simp only [mulf_apply]

end Cert.LinearNorm

end
-- ==== Proof.KernelPay.lean ====
/-
  The kernel's one store, read at an entry of its block. The block of the result at a grid point is computed from
  the point's 1024 rows of x, all of w and the three rows b, gamma, beta: a matrix product over the whole inner axis
  (the roundings to the narrower float format on the way in are the identity on exact values), plus the bias row, then
  the row-wise normalization. At row `p`, lane `q` this is `rowOut` of the row of pre-activations
  `(Σ_k x[p,k]·w[k,j]) + b[j]`.
-/
import proofs.«140784_g2000102696666258_pallasbulk_1294_23_alg».proof.Proof.Gen.KernelIdeal.Skeleton
import proofs.«140784_g2000102696666258_pallasbulk_1294_23_alg».proof.Proof.Epilogue
import Idealize.ShloMosaic.PureOps.Ideal.Laws

noncomputable section

namespace Cert.KernelIdeal.Pay

open Cert.KernelIdeal Cert.KernelIdeal.Gen Idealize.ShloMosaic Idealize.ShloMosaic.ValueIdx
open Cert.LibKeepdims Cert.LinearNorm

/-- The matrix product into a zero accumulator, at entry (p, q): the inner product of row `p` of the left operand
    with column `q` of the right one, the contraction index read as its one coordinate. -/
theorem matmul_apply_pq {φ₁ φ₂ : FTy} (a : FVec Ideal S1024x1024 φ₁) (b : FVec Ideal S1024x1024 φ₂) (p q : Fin 1024) :
    matmul dot_S1024x1024_S1024x1024_S1024x1024_1_0_0_1_n_n none a b (constant S1024x1024 .f32 0x00000000#32) (ix2 p q)
      = ∑ k : Fin 1024, a (ix2 p k) * b (ix2 k q) := by
  refine (Ideal.matmul_constant_zero_apply _ none a b (ix2 p q)).trans ?_
  refine (Equiv.sum_comp (contrEquiv1 dot_S1024x1024_S1024x1024_S1024x1024_1_0_0_1_n_n 1024 rfl rfl).symm _).symm.trans ?_
  refine Finset.sum_congr rfl fun k _ => ?_
  have hl : dot_S1024x1024_S1024x1024_S1024x1024_1_0_0_1_n_n.lhsIdx (ix2 p q)
      ((contrEquiv1 dot_S1024x1024_S1024x1024_S1024x1024_1_0_0_1_n_n 1024 rfl rfl).symm k) = ix2 p k := funext fun c => by
    match c with
    | ⟨0, _⟩ => exact Fin.ext rfl
    | ⟨1, _⟩ => exact Fin.ext ((DotDims.lhsIdx_val_of_single _ rfl _ _).trans (contrEquiv1_symm_val _ 1024 rfl rfl k))
  have hr : dot_S1024x1024_S1024x1024_S1024x1024_1_0_0_1_n_n.rhsIdx (ix2 p q)
      ((contrEquiv1 dot_S1024x1024_S1024x1024_S1024x1024_1_0_0_1_n_n 1024 rfl rfl).symm k) = ix2 k q := funext fun c => by
    match c with
    | ⟨0, _⟩ => exact Fin.ext ((DotDims.rhsIdx_val_of_single _ rfl _ _).trans (contrEquiv1_symm_val _ 1024 rfl rfl k))
    | ⟨1, _⟩ => exact Fin.ext rfl
  rw [hl, hr]

/-- The pre-activation block at (p, j): the inner product over all 1024 inner indices, then the bias of lane `j`. -/
theorem preact_apply (hlt : FTy.bf16.bits < FTy.f32.bits) (hb : S1x1024.Broadcasts S1024x1024)
    (v0 v2 : FVec Ideal S1024x1024 .f32) (v5 : FVec Ideal S1x1024 .f32) (p j : Fin 1024) :
    addf (matmul dot_S1024x1024_S1024x1024_S1024x1024_1_0_0_1_n_n none (truncf .bf16 v0 hlt)
        (truncf .bf16 v2 hlt) (constant S1024x1024 .f32 0x00000000#32))
      (broadcastTo S1024x1024 v5 hb) (ix2 p j)
      = (∑ k : Fin 1024, v0 (ix2 p k) * v2 (ix2 k j)) + v5 (ix2 (0 : Fin 1) j) := by
  rw [addf_apply, matmul_apply_pq, broadcastTo_1b_ab_apply]
  rfl

/-- The stored block at (p, q). -/
theorem pay_apply (v0 v2 : Vec Ideal S1024x1024 .f32) (v5 v28 v31 : Vec Ideal S1x1024 .f32) (p q : Fin 1024) :
    k0_pay1 v0 v2 v5 v28 v31 (ix2 p q)
      = rowOut (fun j => (∑ k : Fin 1024, v0 (ix2 p k) * v2 (ix2 k j)) + v5 (ix2 (0 : Fin 1) j))
          (fun j => v28 (ix2 (0 : Fin 1) j)) (fun j => v31 (ix2 (0 : Fin 1) j)) q := by
  unfold k0_pay1
  refine (epilogue_apply _ _ _ _ _ _ _ v28 v31 p q).trans ?_
  exact congrArg (fun y => rowOut y _ _ q) (funext fun j => preact_apply _ _ v0 v2 v5 p j)

/-- The same at any index of the block, its two coordinates read off the index. -/
theorem pay_at (v0 v2 : Vec Ideal S1024x1024 .f32) (v5 v28 v31 : Vec Ideal S1x1024 .f32) (y : S1024x1024.Idx) :
    k0_pay1 v0 v2 v5 v28 v31 y
      = rowOut (fun j => (∑ k : Fin 1024, v0 (ix2 (y 0 : Fin 1024) k) * v2 (ix2 k j)) + v5 (ix2 (0 : Fin 1) j))
          (fun j => v28 (ix2 (0 : Fin 1) j)) (fun j => v31 (ix2 (0 : Fin 1) j)) (y 1) := by
  obtain ⟨p, q, rfl⟩ : ∃ (p : Fin 1024) (q : Fin 1024), y = ix2 p q := ⟨y 0, y 1, eq_ix2 y⟩
  exact pay_apply v0 v2 v5 v28 v31 p q

end Cert.KernelIdeal.Pay

end
-- ==== Proof.KernelValue.lean ====
/-
  The kernel's result array as one function of its arguments. The grid has 8 points; point t reads rows
  1024·t … 1024·t + 1023 of x, all of w and the rows b, gamma, beta, and writes back the same rows of the result.
  So the block written back at t is the restriction of the specification's `result` to those rows, the 8 blocks
  tile the array, and after the run the array is `result` of the arguments as launched.
-/
import proofs.«140784_g2000102696666258_pallasbulk_1294_23_alg».proof.Proof.Gen.KernelIdeal.Value
import proofs.«140784_g2000102696666258_pallasbulk_1294_23_alg».proof.Proof.KernelPay

noncomputable section

namespace Cert.KernelIdeal.Whole

open Cert.KernelIdeal Cert.KernelIdeal.Gen Idealize.ShloMosaic Idealize.ShloMosaic.TcCoe Idealize.SL.Sem
open Idealize.ShloMosaic.ValueIdx Cert.LinearNorm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification's result at the arguments as launched. -/
abbrev G (c : Dev nD) : Buf (Elt Ideal) ((c : Thread nD τ).loc main_v0) :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The block indices over the 8 grid points: x and the result move with the point along the rows, the rest stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- x's block at point t is rows 1024·t … of x. -/
theorem x_blk (c : Dev nD) (t : Fin cfg0.N) (y : S1024x1024.Idx) (k : S8192x1024.Idx)
    (h0 : (k 0).val = 1024 * t.val + (y 0).val) (h1 : (k 1).val = (y 1).val) :
    (iblk m c 0 t : Vec Ideal S1024x1024 .f32) y = (m ((c : Thread nD τ).loc main_arg0) : S8192x1024.Idx → Elt Ideal .f32) k := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (k 0).val; rw [e0, h0]; omega
  | ⟨1, _⟩ => show win0_0.index t 1 * 1024 + 1 * (y 1).val = (k 1).val; rw [e1, h1]; omega

/-- w's block at every point is all of w. -/
theorem w_blk (c : Dev nD) (t : Fin cfg0.N) (y : S1024x1024.Idx) :
    (iblk m c 1 t : Vec Ideal S1024x1024 .f32) y = (m ((c : Thread nD τ).loc main_arg1) : S1024x1024.Idx → Elt Ideal .f32) y := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- The bias row's block at every point is the bias row. -/
theorem b_blk (c : Dev nD) (t : Fin cfg0.N) (y : S1x1024.Idx) :
    (iblk m c 2 t : Vec Ideal S1x1024 .f32) y = (m ((c : Thread nD τ).loc main_arg2) : S1x1024.Idx → Elt Ideal .f32) y := by
  obtain ⟨-, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_2.index t 0 * 1 + 1 * (y 0).val = (y 0).val; rw [e0]; omega
  | ⟨1, _⟩ => show win0_2.index t 1 * 1024 + 1 * (y 1).val = (y 1).val; rw [e1]; omega

/-- The scale row's block at every point is the scale row. -/
theorem g_blk (c : Dev nD) (t : Fin cfg0.N) (y : S1x1024.Idx) :
    (iblk m c 3 t : Vec Ideal S1x1024 .f32) y = (m ((c : Thread nD τ).loc main_arg3) : S1x1024.Idx → Elt Ideal .f32) y := by
  obtain ⟨-, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t 0 * 1 + 1 * (y 0).val = (y 0).val; rw [e0]; omega
  | ⟨1, _⟩ => show win0_3.index t 1 * 1024 + 1 * (y 1).val = (y 1).val; rw [e1]; omega

/-- The shift row's block at every point is the shift row. -/
theorem bt_blk (c : Dev nD) (t : Fin cfg0.N) (y : S1x1024.Idx) :
    (iblk m c 4 t : Vec Ideal S1x1024 .f32) y = (m ((c : Thread nD τ).loc main_arg4) : S1x1024.Idx → Elt Ideal .f32) y := by
  obtain ⟨-, -, -, -, -, -, -, -, e0, e1, -⟩ := idx_facts t
  unfold iblk
  rw [View.read_apply]
  show V m c main_arg4 _ = m (c.tc.loc main_arg4) _
  unfold V
  congr 1
  funext a
  apply Fin.ext
  match a with
  | ⟨0, _⟩ => show win0_4.index t 0 * 1 + 1 * (y 0).val = (y 0).val; rw [e0]; omega
  | ⟨1, _⟩ => show win0_4.index t 1 * 1024 + 1 * (y 1).val = (y 1).val; rw [e1]; omega

/-- What point t writes back is its block of `G`: each entry is `rowOut` of the pre-activations of its row of x. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz]
  simp only [View.ld_unit_zero (S := S1024x1024) hz, View.ld_unit_zero (S := S1x1024) hz]
  funext j
  show k0_pay1 (iblk m c 0 t) (iblk m c 1 t) (iblk m c 2 t) (iblk m c 3 t) (iblk m c 4 t) ((cfg0.win 5).xinj (grid0.coords t) j)
      = G m c (((cfg0.win 5).blk t).view.emb j)
  refine (Pay.pay_at _ _ _ _ _ ((cfg0.win 5).xinj (grid0.coords t) j)).trans ?_
  obtain ⟨-, -, -, -, -, -, -, -, -, -, e0, e1⟩ := idx_facts t
  have hr : ((((cfg0.win 5).blk t).view.emb j) 0).val = 1024 * t.val + (j 0).val := by
    show win0_5.index t 0 * 1024 + 1 * (j 0).val = _; rw [e0]; omega
  have hq : ((((cfg0.win 5).blk t).view.emb j) 1).val = (j 1).val := by
    show win0_5.index t 1 * 1024 + 1 * (j 1).val = _; rw [e1]; omega
  refine rowOut_congr (funext fun j' => ?_) (funext fun j' => g_blk m c t _) (funext fun j' => bt_blk m c t _) (Fin.ext hq.symm)
  unfold preact
  refine congrArg₂ (· + ·) (Finset.sum_congr rfl fun k _ => congrArg₂ (· * ·) (x_blk m c t _ _ hr rfl) (w_blk m c t _)) (b_blk m c t _)

/-- An index of the array is in point t's block iff each coordinate is in the block's range on its axis. -/
theorem mem_blk (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v0).slice (win0_5.rect t)).set ↔ _
  rw [View.set_slice_whole, Rect.mem_set_unit]
  exact Iff.rfl

/-- The 8 blocks tile the array: row r lies in the block of point r / 1024. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 8 := N_0
  refine ⟨⟨(i 0).val / 1024, by rw [hN]; omega⟩, flush0_5 _, ?_⟩
  obtain ⟨-, -, -, -, -, -, -, -, -, -, e0, e1⟩ := idx_facts ⟨(i 0).val / 1024, by rw [hN]; omega⟩
  rw [mem_blk]
  intro a
  match a with
  | ⟨0, _⟩ =>
    show win0_5.index _ (0 : Fin 2) * 1024 ≤ (i 0).val ∧ (i 0).val < win0_5.index _ (0 : Fin 2) * 1024 + 1024
    rw [e0]; show (i 0).val / 1024 * 1024 ≤ (i 0).val ∧ (i 0).val < (i 0).val / 1024 * 1024 + 1024; omega
  | ⟨1, _⟩ =>
    show win0_5.index _ (1 : Fin 2) * 1024 ≤ (i 1).val ∧ (i 1).val < win0_5.index _ (1 : Fin 2) * 1024 + 1024
    rw [e1]; omega

/-- After the run the result array is the specification's function of the arguments as launched. -/
theorem final (c : Dev nD) : (dats m 0 c).arrAt 5 cfg0.N = G m c :=
  (dats m 0 c).arrAt_eq_of_cover 5 (G m c) (fun t _ => flushed_eq m c t) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefPay.lean ====
/-
  The accumulating program's three stores, read at an entry of their blocks (512 rows by 1024 lanes).
  The first sets the accumulator to the bias row on every row. The second adds to the accumulator the partial product
  of a 512-wide slab of x with the matching 512 rows of w. The third is the row-wise normalization of the accumulator.
-/
import proofs.«140784_g2000102696666258_pallasbulk_1294_23_alg».proof.Proof.Gen.ReferenceIdeal.Skeleton
import proofs.«140784_g2000102696666258_pallasbulk_1294_23_alg».proof.Proof.Epilogue
import Idealize.ShloMosaic.PureOps.Ideal.Laws

noncomputable section

namespace Cert.ReferenceIdeal.Pay

open Cert.ReferenceIdeal Cert.ReferenceIdeal.Gen Idealize.ShloMosaic Idealize.ShloMosaic.ValueIdx
open Cert.LibKeepdims Cert.LinearNorm

/-- The partial product into a zero accumulator, at entry (p, q): the inner product over the slab's 512 indices. -/
theorem matmul_apply_pq {φ₁ φ₂ : FTy} (a : FVec Ideal S512x512 φ₁) (b : FVec Ideal S512x1024 φ₂) (p : Fin 512) (q : Fin 1024) :
    matmul dot_S512x512_S512x1024_S512x1024_1_0_0_1_n_n none a b (constant S512x1024 .f32 0x00000000#32) (ix2 p q)
      = ∑ k : Fin 512, a (ix2 p k) * b (ix2 k q) := by
  refine (Ideal.matmul_constant_zero_apply _ none a b (ix2 p q)).trans ?_
  refine (Equiv.sum_comp (contrEquiv1 dot_S512x512_S512x1024_S512x1024_1_0_0_1_n_n 512 rfl rfl).symm _).symm.trans ?_
  refine Finset.sum_congr rfl fun k _ => ?_
  have hl : dot_S512x512_S512x1024_S512x1024_1_0_0_1_n_n.lhsIdx (ix2 p q)
      ((contrEquiv1 dot_S512x512_S512x1024_S512x1024_1_0_0_1_n_n 512 rfl rfl).symm k) = ix2 p k := funext fun c => by
    match c with
    | ⟨0, _⟩ => exact Fin.ext rfl
    | ⟨1, _⟩ => exact Fin.ext ((DotDims.lhsIdx_val_of_single _ rfl _ _).trans (contrEquiv1_symm_val _ 512 rfl rfl k))
  have hr : dot_S512x512_S512x1024_S512x1024_1_0_0_1_n_n.rhsIdx (ix2 p q)
      ((contrEquiv1 dot_S512x512_S512x1024_S512x1024_1_0_0_1_n_n 512 rfl rfl).symm k) = ix2 k q := funext fun c => by
    match c with
    | ⟨0, _⟩ => exact Fin.ext ((DotDims.rhsIdx_val_of_single _ rfl _ _).trans (contrEquiv1_symm_val _ 512 rfl rfl k))
    | ⟨1, _⟩ => exact Fin.ext rfl
  rw [hl, hr]

/-- The accumulator's start: the bias of lane `j` on every row. -/
theorem bias_apply (x2 : FVec Ideal S1x1024 .f32) (p : Fin 512) (j : Fin 1024) :
    k0_pay1 (F := Ideal) x2 (ix2 p j) = x2 (ix2 (0 : Fin 1) j) := by
  unfold k0_pay1
  simp only [shapeCast_self]
  exact broadcastTo_1b_ab_apply _ _ p j

/-- One accumulation step at (p, j): what the accumulator held plus the slab's inner product. -/
theorem step_apply (acc : FVec Ideal S512x1024 .f32) (x0 : FVec Ideal S512x512 .f32) (x1 : FVec Ideal S512x1024 .f32)
    (p : Fin 512) (j : Fin 1024) :
    k0_pay2 (F := Ideal) acc x0 x1 (ix2 p j) = acc (ix2 p j) + ∑ k : Fin 512, x0 (ix2 p k) * x1 (ix2 k j) := by
  unfold k0_pay2
  simp only [shapeCast_self]
  rw [addf_apply, matmul_apply_pq]

/-- The stored output block at (p, q): the normalized row `p` of the accumulator. -/
theorem out_apply (y : FVec Ideal S512x1024 .f32) (x3 x4 : FVec Ideal S1x1024 .f32) (p : Fin 512) (q : Fin 1024) :
    k0_pay3 (F := Ideal) y x3 x4 (ix2 p q)
      = rowOut (fun j => y (ix2 p j)) (fun j => x3 (ix2 (0 : Fin 1) j)) (fun j => x4 (ix2 (0 : Fin 1) j)) q := by
  unfold k0_pay3
  simp only [shapeCast_self]
  exact epilogue_apply _ _ _ _ _ _ y x3 x4 p q

/-- The same at any index of the block, its two coordinates read off the index. -/
theorem out_at (y : Vec Ideal S512x1024 .f32) (x3 x4 : Vec Ideal S1x1024 .f32) (i : S512x1024.Idx) :
    k0_pay3 y x3 x4 i
      = rowOut (fun j => y (ix2 (i 0 : Fin 512) j)) (fun j => x3 (ix2 (0 : Fin 1) j)) (fun j => x4 (ix2 (0 : Fin 1) j)) (i 1) := by
  obtain ⟨p, q, rfl⟩ : ∃ (p : Fin 512) (q : Fin 1024), i = ix2 p q := ⟨i 0, i 1, eq_ix2 i⟩
  exact out_apply y x3 x4 p q

end Cert.ReferenceIdeal.Pay

end
-- ==== Proof.RefPieces.lean ====
/-
  What the two kinds of grid point of the accumulating program leave behind, as terms of the point's blocks.
  At a first inner step (k = 0) the accumulator is set to the bias row broadcast over the rows and the step's partial
  product is added onto it; at the last inner step (k = 1) the step's partial product is added onto what the
  accumulator held and the normalized rows of the sum are stored into the output block.
-/
import proofs.«140784_g2000102696666258_pallasbulk_1294_23_alg».proof.Proof.Gen.ReferenceIdeal.Frame
import Idealize.ShloMosaic.Lib.Pipeline.Value
import Idealize.ShloMosaic.Lib.Tactic

noncomputable section

namespace Cert.ReferenceIdeal.Pieces

open Cert.ReferenceIdeal Cert.ReferenceIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- After a first inner step the accumulator holds the bias row on every row plus the step's partial product. -/
theorem acc_first (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x512 .f32) (x1 : Vec F S512x1024 .f32) (x2 : Vec F S1x1024 .f32) (x3 : Vec F S1x1024 .f32) (x4 : Vec F S1x1024 .f32) :
    sout0_A_0 c i arg2 harg2 arg3 harg3 arg4 harg4 arg5 harg5 arg6 harg6 arg7 harg7 arg8 harg8 hc0 hc1 x0 x1 x2 x3 x4 = k0_pay2 (k0_pay1 x2) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  try sl_unfold_words
  rw [View.canon_cons_unit_zero hz]
  simp only [View.readAt_eq_ld, harg2.read_unread, harg3.read_unread, harg4.read_unread, View.readCov_unit_zero (S := S512x1024) _ hz,
    View.ld_unit_zero (S := S512x1024) hz, View.ld_unit_zero (S := S512x512) hz, View.ld_unit_zero (S := S1x1024) hz]

/-- At a last inner step the output block receives the normalized rows of the accumulator plus the step's partial
    product. -/
theorem out_last (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x512 .f32) (x1 : Vec F S512x1024 .f32) (x2 : Vec F S1x1024 .f32) (x3 : Vec F S1x1024 .f32) (x4 : Vec F S1x1024 .f32) (xs0 : Vec F S512x1024 .f32) :
    out0_B_5 c i arg2 harg2 arg3 harg3 arg4 harg4 arg5 harg5 arg6 harg6 arg7 harg7 arg8 harg8 hc0 hc1 x0 x1 x2 x3 x4 xs0 = k0_pay3 (k0_pay2 xs0 x0 x1) x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  try sl_unfold_words
  rw [View.canon_unit_zero hz]
  simp only [View.readAt_eq_ld, harg2.read_unread, harg3.read_unread, harg5.read_unread, harg6.read_unread, harg8.read_unread,
    View.readCov_unit_zero (S := S512x1024) _ hz,
    View.ld_unit_zero (S := S512x1024) hz, View.ld_unit_zero (S := S512x512) hz, View.ld_unit_zero (S := S1x1024) hz]

end Cert.ReferenceIdeal.Pieces

end
-- ==== Proof.LibScatterWhole.lean ====
/-
  A host scatter that overwrites the whole operand. `zeros.at[:n, :m].set(x)` with the slice the whole array lowers
  to a scatter with no scatter index: one window, starting at the origin, as large as the operand. Every update index
  then lands in bounds at the same index of the operand, each operand index is hit, and the result is the update array
  whatever the operand held. The scatter is a left fold over the update indices in row-major order; the fold is read
  at an index by induction over any list of positions, never over the literal one.
-/
import Idealize.ShloMosaic.PureOps.ShapeOps
import Idealize.ShloMosaic.PureOps.Dims

namespace Cert.LibScatterWhole

open Idealize.ShloMosaic

variable {α : Type} {w : Nat} {s si : Shape}

/-- The fold of "write `upd` at position `n`'s index" over a list of row-major positions, read at `i'`: the
    update where the list holds `i'`'s position, the start contents elsewhere. -/
theorem foldl_set_apply (upd : s.Idx → α) (L : List (Fin s.numel)) :
    ∀ (r : s.Idx → α) (i' : s.Idx),
      (L.foldl (fun (r : s.Idx → α) (n : Fin s.numel) => fun i' => if i' = s.rowMajor.symm n then upd (s.rowMajor.symm n) else r i') r) i'
        = if s.rowMajor i' ∈ L then upd i' else r i' := by
  induction L with
  | nil => intro r i'; simp
  | cons a L ih =>
    intro r i'
    rw [List.foldl_cons, ih]
    by_cases hL : s.rowMajor i' ∈ L
    · rw [if_pos hL, if_pos (List.mem_cons_of_mem _ hL)]
    · rw [if_neg hL]
      by_cases ha : i' = s.rowMajor.symm a
      · rw [if_pos ha, if_pos (by rw [ha, Equiv.apply_symm_apply]; exact List.mem_cons_self), ← ha]
      · rw [if_neg ha, if_neg (by
          intro hm
          rcases List.mem_cons.mp hm with h | h
          · exact ha (by rw [← h, Equiv.symm_apply_apply])
          · exact hL h)]

/-- If every update index lands at the same index of the operand, a `set` scatter returns the update array. -/
theorem scatter_set_whole (d : ScatterDims s si s) (x upd : s.Idx → α) (idx : IVec si w)
    (h : ∀ j : s.Idx, d.resultIdx? j idx = some j) : Host.scatter d (fun _ b => b) x idx upd = upd := by
  unfold Host.scatter
  simp only [h]
  funext i'
  exact (foldl_set_apply upd _ x i').trans (if_pos (List.mem_finRange _))

/-- With no start offset and the window coordinate of every axis the update's own, the update index lands at itself. -/
theorem resultIdx_self (d : ScatterDims s si s) (idx : IVec si w) (j : s.Idx)
    (hstart : ∀ a, d.start j idx a = 0) (hwin : ∀ a, d.window j a = (j a).val) : d.resultIdx? j idx = some j := by
  unfold ScatterDims.resultIdx?
  have hsum : ∀ a, d.start j idx a + (d.window j a : Int) = ((j a).val : Int) := fun a => by rw [hstart a, hwin a, Int.zero_add]
  rw [dif_pos (fun a => by rw [hsum a]; exact ⟨Int.natCast_nonneg _, by exact_mod_cast (j a).isLt⟩)]
  refine congrArg some (funext fun a => Fin.ext ?_)
  show (d.start j idx a + (d.window j a : Int)).toNat = (j a).val
  rw [hsum a, Int.toNat_natCast]

end Cert.LibScatterWhole
-- ==== Proof.RefHost.lean ====
/-
  The arrays the accumulating program's region finds. Before its one kernel call the host program copies each of the
  five arguments into a fresh array of the same shape (`zeros.at[:n, :m].set(x)` with the slice the whole array): a
  scatter with no scatter index whose one window is the whole operand. So each operand of the call holds exactly the
  corresponding argument.
-/
import proofs.«140784_g2000102696666258_pallasbulk_1294_23_alg».proof.Proof.Gen.ReferenceIdeal.Frame.Runs
import proofs.«140784_g2000102696666258_pallasbulk_1294_23_alg».proof.Proof.LibScatterWhole
import Idealize.ShloMosaic.Lib.StableHlo.Run
import Idealize.ShloMosaic.PureOps.Ideal

noncomputable section

namespace Cert.ReferenceIdeal.Host

open Cert.ReferenceIdeal Cert.ReferenceIdeal.Gen Idealize.ShloMosaic Idealize.ShloMosaic.TcCoe Idealize.SL.Sem
open Cert.LibScatterWhole

variable (m : (ℓ : Loc nD τ sig) → Buf (Elt Ideal) ℓ)

/-- The call's first operand holds x. -/
theorem V_x (c : Dev nD) :
    (V m c main_v1 : S8192x1024.Idx → Elt Ideal .f32) = m ((c : Thread nD τ).loc main_arg0) := by
  have e : ∃ (x : S8192x1024.Idx → Elt Ideal .f32) (idx : IVec S0 32),
      (V m c main_v1 : S8192x1024.Idx → Elt Ideal .f32)
        = Host.scatter scatter_S8192x1024_S0_S8192x1024_01_n_n_0 (fun _ b => b) x idx (m ((c : Thread nD τ).loc main_arg0)) := by
    refine ⟨?_, ?_, ?h⟩
    case h =>
      dsimp only [V, hostOps0]
      after_results
  obtain ⟨x, idx, e⟩ := e
  rw [e]
  exact scatter_set_whole _ _ _ _ fun j => resultIdx_self _ idx j
    (fun a => by match a with | ⟨0, _⟩ => rfl | ⟨1, _⟩ => rfl) (fun a => by match a with | ⟨0, _⟩ => rfl | ⟨1, _⟩ => rfl)

/-- The call's second operand holds w. -/
theorem V_w (c : Dev nD) :
    (V m c main_v3 : S1024x1024.Idx → Elt Ideal .f32) = m ((c : Thread nD τ).loc main_arg1) := by
  have e : ∃ (x : S1024x1024.Idx → Elt Ideal .f32) (idx : IVec S0 32),
      (V m c main_v3 : S1024x1024.Idx → Elt Ideal .f32)
        = Host.scatter scatter_S1024x1024_S0_S1024x1024_01_n_n_0 (fun _ b => b) x idx (m ((c : Thread nD τ).loc main_arg1)) := by
    refine ⟨?_, ?_, ?h⟩
    case h =>
      dsimp only [V, hostOps0]
      after_results
  obtain ⟨x, idx, e⟩ := e
  rw [e]
  exact scatter_set_whole _ _ _ _ fun j => resultIdx_self _ idx j
    (fun a => by match a with | ⟨0, _⟩ => rfl | ⟨1, _⟩ => rfl) (fun a => by match a with | ⟨0, _⟩ => rfl | ⟨1, _⟩ => rfl)

/-- The call's third operand holds the bias row. -/
theorem V_b (c : Dev nD) :
    (V m c main_v5 : S1x1024.Idx → Elt Ideal .f32) = m ((c : Thread nD τ).loc main_arg2) := by
  have e : ∃ (x : S1x1024.Idx → Elt Ideal .f32) (idx : IVec S0 32),
      (V m c main_v5 : S1x1024.Idx → Elt Ideal .f32)
        = Host.scatter scatter_S1x1024_S0_S1x1024_01_n_n_0 (fun _ b => b) x idx (m ((c : Thread nD τ).loc main_arg2)) := by
    refine ⟨?_, ?_, ?h⟩
    case h =>
      dsimp only [V, hostOps0]
      after_results
  obtain ⟨x, idx, e⟩ := e
  rw [e]
  exact scatter_set_whole _ _ _ _ fun j => resultIdx_self _ idx j
    (fun a => by match a with | ⟨0, _⟩ => rfl | ⟨1, _⟩ => rfl) (fun a => by match a with | ⟨0, _⟩ => rfl | ⟨1, _⟩ => rfl)

/-- The call's fourth operand holds the scale row. -/
theorem V_g (c : Dev nD) :
    (V m c main_v7 : S1x1024.Idx → Elt Ideal .f32) = m ((c : Thread nD τ).loc main_arg3) := by
  have e : ∃ (x : S1x1024.Idx → Elt Ideal .f32) (idx : IVec S0 32),
      (V m c main_v7 : S1x1024.Idx → Elt Ideal .f32)
        = Host.scatter scatter_S1x1024_S0_S1x1024_01_n_n_0 (fun _ b => b) x idx (m ((c : Thread nD τ).loc main_arg3)) := by
    refine ⟨?_, ?_, ?h⟩
    case h =>
      dsimp only [V, hostOps0]
      after_results
  obtain ⟨x, idx, e⟩ := e
  rw [e]
  exact scatter_set_whole _ _ _ _ fun j => resultIdx_self _ idx j
    (fun a => by match a with | ⟨0, _⟩ => rfl | ⟨1, _⟩ => rfl) (fun a => by match a with | ⟨0, _⟩ => rfl | ⟨1, _⟩ => rfl)

/-- The call's fifth operand holds the shift row. -/
theorem V_bt (c : Dev nD) :
    (V m c main_v9 : S1x1024.Idx → Elt Ideal .f32) = m ((c : Thread nD τ).loc main_arg4) := by
  have e : ∃ (x : S1x1024.Idx → Elt Ideal .f32) (idx : IVec S0 32),
      (V m c main_v9 : S1x1024.Idx → Elt Ideal .f32)
        = Host.scatter scatter_S1x1024_S0_S1x1024_01_n_n_0 (fun _ b => b) x idx (m ((c : Thread nD τ).loc main_arg4)) := by
    refine ⟨?_, ?_, ?h⟩
    case h =>
      dsimp only [V, hostOps0]
      after_results
  obtain ⟨x, idx, e⟩ := e
  rw [e]
  exact scatter_set_whole _ _ _ _ fun j => resultIdx_self _ idx j
    (fun a => by match a with | ⟨0, _⟩ => rfl | ⟨1, _⟩ => rfl) (fun a => by match a with | ⟨0, _⟩ => rfl | ⟨1, _⟩ => rfl)

end Cert.ReferenceIdeal.Host

end
-- ==== Proof.RefBlocks.lean ====
/-
  The blocks the accumulating program's grid points read, as entries of the arguments. Point t = 2·i + k reads rows
  512·i … 512·i + 511 and inner indices 512·k … 512·k + 511 of x, inner indices 512·k … of w with all lanes, and the
  whole rows b, gamma, beta. The arrays the region reads are the host's whole-array copies of the arguments.
-/
import proofs.«140784_g2000102696666258_pallasbulk_1294_23_alg».proof.Proof.Gen.ReferenceIdeal.Frame
import proofs.«140784_g2000102696666258_pallasbulk_1294_23_alg».proof.Proof.RefHost
import proofs.«140784_g2000102696666258_pallasbulk_1294_23_alg».proof.Proof.Spec

noncomputable section

namespace Cert.ReferenceIdeal.Blocks

open Cert.ReferenceIdeal Cert.ReferenceIdeal.Gen Idealize.ShloMosaic Idealize.ShloMosaic.TcCoe Idealize.SL.Sem
open Idealize.ShloMosaic.ValueIdx Cert.LinearNorm
open Idealize.ShloMosaic.Pipeline (Dat)

variable (m : (ℓ : Loc nD τ sig) → Buf (Elt Ideal) ℓ) (ρ : Dev nD → PrngReg)

/-- The specification's result at the arguments as launched. -/
abbrev G (c : Dev nD) : Buf (Elt Ideal) ((c : Thread nD τ).loc main_v10) :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The block indices over the 32 grid points: the row block is t / 2, the half of the inner axis t % 2. -/
theorem idx_facts : ∀ t : Fin cfg0.N,
    win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

/-- x's block at point t: rows 512·(t/2) …, inner indices 512·(t%2) … of x. -/
theorem x_blk (c : Dev nD) (t : Fin cfg0.N) (y : S512x512.Idx) (k : S8192x1024.Idx)
    (h0 : (k 0).val = 512 * (t.val / 2) + (y 0).val) (h1 : (k 1).val = 512 * (t.val % 2) + (y 1).val) :
    (iblk m c 0 t : Vec Ideal S512x512 .f32) y = (m ((c : Thread nD τ).loc main_arg0) : S8192x1024.Idx → Elt Ideal .f32) k := by
  obtain ⟨e0, e1, -⟩ := idx_facts t
  unfold iblk
  generalize hV : V m c (Pipeline.arrRef spec0 0) = A
  have hA : A = (m ((c : Thread nD τ).loc main_arg0) : S8192x1024.Idx → Elt Ideal .f32) := hV.symm.trans (Host.V_x m c)
  subst hA
  rw [View.read_apply, cast_eq]
  refine congrArg _ (funext fun a => Fin.ext ?_)
  match a with
  | ⟨0, _⟩ => show win0_0.index t 0 * 512 + 1 * (y 0).val = (k 0).val; rw [e0, h0]; omega
  | ⟨1, _⟩ => show win0_0.index t 1 * 512 + 1 * (y 1).val = (k 1).val; rw [e1, h1]; omega

/-- w's block at point t: inner indices 512·(t%2) … of w, all lanes. -/
theorem w_blk (c : Dev nD) (t : Fin cfg0.N) (y : S512x1024.Idx) (k : S1024x1024.Idx)
    (h0 : (k 0).val = 512 * (t.val % 2) + (y 0).val) (h1 : (k 1).val = (y 1).val) :
    (iblk m c 1 t : Vec Ideal S512x1024 .f32) y = (m ((c : Thread nD τ).loc main_arg1) : S1024x1024.Idx → Elt Ideal .f32) k := by
  obtain ⟨-, -, e0, e1, -⟩ := idx_facts t
  unfold iblk
  generalize hV : V m c (Pipeline.arrRef spec0 1) = A
  have hA : A = (m ((c : Thread nD τ).loc main_arg1) : S1024x1024.Idx → Elt Ideal .f32) := hV.symm.trans (Host.V_w m c)
  subst hA
  rw [View.read_apply, cast_eq]
  refine congrArg _ (funext fun a => Fin.ext ?_)
  match a with
  | ⟨0, _⟩ => show win0_1.index t 0 * 512 + 1 * (y 0).val = (k 0).val; rw [e0, h0]; omega
  | ⟨1, _⟩ => show win0_1.index t 1 * 1024 + 1 * (y 1).val = (k 1).val; rw [e1, h1]; omega

/-- The bias row's block at every point is the bias row. -/
theorem b_blk (c : Dev nD) (t : Fin cfg0.N) (y : S1x1024.Idx) (k : S1x1024.Idx)
    (h0 : (k 0).val = (y 0).val) (h1 : (k 1).val = (y 1).val) :
    (iblk m c 2 t : Vec Ideal S1x1024 .f32) y = (m ((c : Thread nD τ).loc main_arg2) : S1x1024.Idx → Elt Ideal .f32) k := by
  obtain ⟨-, -, -, -, e0, e1, -⟩ := idx_facts t
  unfold iblk
  generalize hV : V m c (Pipeline.arrRef spec0 2) = A
  have hA : A = (m ((c : Thread nD τ).loc main_arg2) : S1x1024.Idx → Elt Ideal .f32) := hV.symm.trans (Host.V_b m c)
  subst hA
  rw [View.read_apply, cast_eq]
  refine congrArg _ (funext fun a => Fin.ext ?_)
  match a with
  | ⟨0, _⟩ => show win0_2.index t 0 * 1 + 1 * (y 0).val = (k 0).val; rw [e0, h0]; omega
  | ⟨1, _⟩ => show win0_2.index t 1 * 1024 + 1 * (y 1).val = (k 1).val; rw [e1, h1]; omega

/-- The scale row's block at every point is the scale row. -/
theorem g_blk (c : Dev nD) (t : Fin cfg0.N) (y : S1x1024.Idx) (k : S1x1024.Idx)
    (h0 : (k 0).val = (y 0).val) (h1 : (k 1).val = (y 1).val) :
    (iblk m c 3 t : Vec Ideal S1x1024 .f32) y = (m ((c : Thread nD τ).loc main_arg3) : S1x1024.Idx → Elt Ideal .f32) k := by
  obtain ⟨-, -, -, -, -, -, e0, e1, -⟩ := idx_facts t
  unfold iblk
  generalize hV : V m c (Pipeline.arrRef spec0 3) = A
  have hA : A = (m ((c : Thread nD τ).loc main_arg3) : S1x1024.Idx → Elt Ideal .f32) := hV.symm.trans (Host.V_g m c)
  subst hA
  rw [View.read_apply, cast_eq]
  refine congrArg _ (funext fun a => Fin.ext ?_)
  match a with
  | ⟨0, _⟩ => show win0_3.index t 0 * 1 + 1 * (y 0).val = (k 0).val; rw [e0, h0]; omega
  | ⟨1, _⟩ => show win0_3.index t 1 * 1024 + 1 * (y 1).val = (k 1).val; rw [e1, h1]; omega

/-- The shift row's block at every point is the shift row. -/
theorem bt_blk (c : Dev nD) (t : Fin cfg0.N) (y : S1x1024.Idx) (k : S1x1024.Idx)
    (h0 : (k 0).val = (y 0).val) (h1 : (k 1).val = (y 1).val) :
    (iblk m c 4 t : Vec Ideal S1x1024 .f32) y = (m ((c : Thread nD τ).loc main_arg4) : S1x1024.Idx → Elt Ideal .f32) k := by
  obtain ⟨-, -, -, -, -, -, -, -, e0, e1, -⟩ := idx_facts t
  unfold iblk
  generalize hV : V m c (Pipeline.arrRef spec0 4) = A
  have hA : A = (m ((c : Thread nD τ).loc main_arg4) : S1x1024.Idx → Elt Ideal .f32) := hV.symm.trans (Host.V_bt m c)
  subst hA
  rw [View.read_apply, cast_eq]
  refine congrArg _ (funext fun a => Fin.ext ?_)
  match a with
  | ⟨0, _⟩ => show win0_4.index t 0 * 1 + 1 * (y 0).val = (k 0).val; rw [e0, h0]; omega
  | ⟨1, _⟩ => show win0_4.index t 1 * 1024 + 1 * (y 1).val = (k 1).val; rw [e1, h1]; omega

end Cert.ReferenceIdeal.Blocks

end
-- ==== Proof.RefValue.lean ====
/-
  The accumulating program's result array as one function of its arguments. The grid has 16 × 2 points, the inner
  coordinate last: point t = 2·i + k works on rows 512·i … 512·i + 511 and on the k-th half of the inner axis. At k = 0
  the accumulator is set to the bias row plus the first half's partial product; at k = 1 the second half's partial
  product is added, the rows are normalized, and the block is written back — the only write-back of row block i.
  The pre-activation so accumulated, (b + Σ_{k<512}) + Σ_{512≤k}, is the whole inner product plus the bias
  (`sum_split`), so the block written back at an odd point is the restriction of the specification's `result`, and
  the 16 write-backs tile the array.
-/
import proofs.«140784_g2000102696666258_pallasbulk_1294_23_alg».proof.Proof.Gen.ReferenceIdeal.Value
import proofs.«140784_g2000102696666258_pallasbulk_1294_23_alg».proof.Proof.RefPay
import proofs.«140784_g2000102696666258_pallasbulk_1294_23_alg».proof.Proof.RefPieces
import proofs.«140784_g2000102696666258_pallasbulk_1294_23_alg».proof.Proof.RefBlocks

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.LinearNorm Cert.ReferenceIdeal.Blocks
open Idealize.ShloMosaic.Pipeline (Dat)

variable (m : (ℓ : Loc nD τ sig) → Buf (Elt Ideal) ℓ) (ρ : Dev nD → PrngReg)

/-- What an odd point t = 2·i + 1 writes back is its block of `G`. The accumulator it finds is what the even point
    before left (bias plus the first half's partial product); it adds the second half's and normalizes. -/
theorem flushed_eq (c : Dev nD) (t : Fin cfg0.N) (hf : (cfg0.win 5).flush t = true) :
    (dats m 0 c).flushed 5 t = ((cfg0.win 5).blk t).view.read (Elt Ideal) (G m c) := by
  have h1 : t.val % 2 = 1 := (flush0_5 t).mp hf
  have h0 : ¬t.val % 2 = 0 := by omega
  have hN : t.val < 32 := lt_of_lt_of_eq t.isLt (show cfg0.N = 32 from N_0)
  have hlt : t.val - 1 < cfg0.N := Nat.lt_of_le_of_lt (Nat.sub_le _ _) t.isLt
  have h0' : (t.val - 1) % 2 = 0 := by omega
  have h1' : ¬(t.val - 1) % 2 = 1 := by omega
  rw [Value.flushed5_B m c t h0 h1, outsAt0_A m c ⟨t.val - 1, hlt⟩ h0' h1']
  dsimp only
  rw [Pieces.acc_first (F := Ideal) c (grid0.coords ⟨t.val - 1, hlt⟩) (ms0_0 ⟨t.val - 1, hlt⟩) (hs0_0 ⟨t.val - 1, hlt⟩) (ms0_1 ⟨t.val - 1, hlt⟩) (hs0_1 ⟨t.val - 1, hlt⟩) (ms0_2 ⟨t.val - 1, hlt⟩) (hs0_2 ⟨t.val - 1, hlt⟩) (ms0_3 ⟨t.val - 1, hlt⟩) (hs0_3 ⟨t.val - 1, hlt⟩) (ms0_4 ⟨t.val - 1, hlt⟩) (hs0_4 ⟨t.val - 1, hlt⟩) (ms0_5 ⟨t.val - 1, hlt⟩) (hs0_5 ⟨t.val - 1, hlt⟩) scM0_0 (Memref.isWhole_whole _)
    ((hcond0_0 ⟨t.val - 1, hlt⟩).mpr h0') (fun h => h1' ((hcond0_1 ⟨t.val - 1, hlt⟩).mp h)) (iblk m c 0 ⟨t.val - 1, hlt⟩) (iblk m c 1 ⟨t.val - 1, hlt⟩) (iblk m c 2 ⟨t.val - 1, hlt⟩) (iblk m c 3 ⟨t.val - 1, hlt⟩) (iblk m c 4 ⟨t.val - 1, hlt⟩)]
  rw [Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun h => h0 ((hcond0_0 t).mp h)) ((hcond0_1 t).mpr h1) (iblk m c 0 t) (iblk m c 1 t) (iblk m c 2 t) (iblk m c 3 t) (iblk m c 4 t) _]
  funext j
  show k0_pay3 (k0_pay2 (k0_pay2 (k0_pay1 (iblk m c 2 ⟨t.val - 1, hlt⟩)) (iblk m c 0 ⟨t.val - 1, hlt⟩) (iblk m c 1 ⟨t.val - 1, hlt⟩))
        (iblk m c 0 t) (iblk m c 1 t)) (iblk m c 3 t) (iblk m c 4 t) ((cfg0.win 5).xinj (grid0.coords t) j)
      = G m c (((cfg0.win 5).blk t).view.emb j)
  refine (Pay.out_at _ _ _ ((cfg0.win 5).xinj (grid0.coords t) j)).trans ?_
  obtain ⟨-, -, -, -, -, -, -, -, -, -, e0, e1⟩ := idx_facts t
  have hr : ((((cfg0.win 5).blk t).view.emb j) 0).val = 512 * (t.val / 2) + (j 0).val := by
    show win0_5.index t 0 * 512 + 1 * (j 0).val = _; rw [e0]; omega
  have hq : ((((cfg0.win 5).blk t).view.emb j) 1).val = (j 1).val := by
    show win0_5.index t 1 * 1024 + 1 * (j 1).val = _; rw [e1]; omega
  have hj0 : (j 0).val < 512 := (j 0).isLt
  refine rowOut_congr (funext fun j' => ?_) (funext fun j' => g_blk m c t _ _ rfl rfl) (funext fun j' => bt_blk m c t _ _ rfl rfl)
    (Fin.ext hq.symm)
  refine ((Pay.step_apply _ _ _ _ _).trans (congrArg (· + _) ((Pay.step_apply _ _ _ _ _).trans
    (congrArg (· + _) (Pay.bias_apply _ _ _))))).trans ?_
  rw [b_blk m c ⟨t.val - 1, hlt⟩ _ (ix2 (0 : Fin 1) j') rfl rfl]
  unfold preact
  refine (sum_split _ _ _ _ (fun k => ?_) (fun k => ?_)).symm
  · have hk : k.val < 512 := k.isLt
    refine congrArg₂ (· * ·) (x_blk m c ⟨t.val - 1, hlt⟩ _ _ ?_ ?_) (w_blk m c ⟨t.val - 1, hlt⟩ _ _ ?_ rfl)
    · show ((((cfg0.win 5).blk t).view.emb j) 0).val = 512 * ((t.val - 1) / 2) + (j 0).val; rw [hr]; omega
    · show k.val = 512 * ((t.val - 1) % 2) + k.val; omega
    · show k.val = 512 * ((t.val - 1) % 2) + k.val; omega
  · have hk : k.val < 512 := k.isLt
    refine congrArg₂ (· * ·) (x_blk m c t _ _ ?_ ?_) (w_blk m c t _ _ ?_ rfl)
    · show ((((cfg0.win 5).blk t).view.emb j) 0).val = 512 * (t.val / 2) + (j 0).val; exact hr
    · show 512 + k.val = 512 * (t.val % 2) + k.val; omega
    · show 512 + k.val = 512 * (t.val % 2) + k.val; omega

/-- An index of the array is in point t's block iff each coordinate is in the block's range on its axis. -/
theorem mem_blk (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v10).slice (win0_5.rect t)).set ↔ _
  rw [View.set_slice_whole, Rect.mem_set_unit]
  exact Iff.rfl

/-- The 16 write-backs tile the array: row r lies in the block written back at point 2·(r / 512) + 1. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  refine ⟨⟨2 * ((i 0).val / 512) + 1, by rw [hN]; omega⟩, (flush0_5 _).mpr (by show (2 * ((i 0).val / 512) + 1) % 2 = 1; omega), ?_⟩
  obtain ⟨-, -, -, -, -, -, -, -, -, -, e0, e1⟩ := idx_facts ⟨2 * ((i 0).val / 512) + 1, by rw [hN]; omega⟩
  rw [mem_blk]
  intro a
  match a with
  | ⟨0, _⟩ =>
    show win0_5.index _ (0 : Fin 2) * 512 ≤ (i 0).val ∧ (i 0).val < win0_5.index _ (0 : Fin 2) * 512 + 512
    rw [e0]
    show (2 * ((i 0).val / 512) + 1) / 2 * 512 ≤ (i 0).val ∧ (i 0).val < (2 * ((i 0).val / 512) + 1) / 2 * 512 + 512
    omega
  | ⟨1, _⟩ =>
    show win0_5.index _ (1 : Fin 2) * 1024 ≤ (i 1).val ∧ (i 1).val < win0_5.index _ (1 : Fin 2) * 1024 + 1024
    rw [e1]; omega

/-- After the run the result array is the specification's function of the arguments as launched. -/
theorem final (c : Dev nD) : (dats m 0 c).arrAt 5 cfg0.N = G m c :=
  (dats m 0 c).arrAt_eq_of_cover 5 (G m c) (fun t hf => flushed_eq m c t hf) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.Whole

end
-- ==== Proof.lean ====
/-
  Two programs for y = relu(layernorm(x·w + b)·gamma + beta), the normalization along the lanes, are equal on the
  extended reals.
  The first computes, per block of 1024 rows, the whole product x·w over all 1024 inner indices, adds the bias row,
  and normalizes each row: mean = (Σy)·2⁻¹⁰, var = max((Σy²)·2⁻¹⁰ − mean², 0), out = max((y − mean)·rsqrt(var + ε)·gamma
  + beta, 0). The second works on blocks of 512 rows and splits the inner axis in two halves: an accumulator starts at
  the bias row, each half's partial product is added to it, and after the second half the same normalization is
  applied. Before its kernel call the second program copies each argument whole into a fresh array (a scatter over the
  whole array), which changes nothing.
  Both results are the one function `LinearNorm.result` of the five arguments: entry (r, q) is `rowOut` of the row of
  pre-activations (Σ_k x[r,k]·w[k,j]) + b[j]. For the first program this is read off its store directly; for the
  second, (b + Σ_{k<512} …) + Σ_{512≤k} … is the same extended real by commutativity and associativity of addition
  alone, so no finiteness of the inputs is used. The changes of float format on the way into the first program's
  product are the identity on exact values, and the idealization rewrote no operation, so `preserves` is trivial.
  The three frames are the generated frame certificates.
-/
import proofs.«140784_g2000102696666258_pallasbulk_1294_23_alg».proof.Defs
import proofs.«140784_g2000102696666258_pallasbulk_1294_23_alg».proof.Proof.Gen.Kernel
import proofs.«140784_g2000102696666258_pallasbulk_1294_23_alg».proof.Proof.Gen.Kernel.Skeleton
import proofs.«140784_g2000102696666258_pallasbulk_1294_23_alg».proof.Proof.Gen.Kernel.Launch
import proofs.«140784_g2000102696666258_pallasbulk_1294_23_alg».proof.Proof.Gen.Kernel.Points
import proofs.«140784_g2000102696666258_pallasbulk_1294_23_alg».proof.Proof.Gen.Kernel.Frame
import proofs.«140784_g2000102696666258_pallasbulk_1294_23_alg».proof.Proof.Gen.KernelIdeal
import proofs.«140784_g2000102696666258_pallasbulk_1294_23_alg».proof.Proof.Gen.KernelIdeal.Skeleton
import proofs.«140784_g2000102696666258_pallasbulk_1294_23_alg».proof.Proof.Gen.KernelIdeal.Launch
import proofs.«140784_g2000102696666258_pallasbulk_1294_23_alg».proof.Proof.Gen.KernelIdeal.Points
import proofs.«140784_g2000102696666258_pallasbulk_1294_23_alg».proof.Proof.Gen.KernelIdeal.Frame
import proofs.«140784_g2000102696666258_pallasbulk_1294_23_alg».proof.Proof.Gen.ReferenceIdeal
import proofs.«140784_g2000102696666258_pallasbulk_1294_23_alg».proof.Proof.Gen.ReferenceIdeal.Skeleton
import proofs.«140784_g2000102696666258_pallasbulk_1294_23_alg».proof.Proof.Gen.ReferenceIdeal.Launch
import proofs.«140784_g2000102696666258_pallasbulk_1294_23_alg».proof.Proof.Gen.ReferenceIdeal.Points
import proofs.«140784_g2000102696666258_pallasbulk_1294_23_alg».proof.Proof.Gen.ReferenceIdeal.Frame
import proofs.«140784_g2000102696666258_pallasbulk_1294_23_alg».proof.Proof.Gen.Pre_finite_inputs
import proofs.«140784_g2000102696666258_pallasbulk_1294_23_alg».proof.Proof.Gen.KernelIdeal.Value
import proofs.«140784_g2000102696666258_pallasbulk_1294_23_alg».proof.Proof.Gen.ReferenceIdeal.Value
import proofs.«140784_g2000102696666258_pallasbulk_1294_23_alg».proof.Proof.KernelValue
import proofs.«140784_g2000102696666258_pallasbulk_1294_23_alg».proof.Proof.RefValue
import Idealize.ShloMosaic.Adequacy
import Idealize.ShloMosaic.Init

noncomputable section

namespace Cert.Proof

open Idealize.ShloMosaic Idealize.SL.Sem Cert.Kernel

/-- Both idealized programs end with the specification's `result` of their arguments; the arguments agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  show Cert.LinearNorm.result _ _ _ _ _ = Cert.LinearNorm.result _ _ _ _ _
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
